-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x16 : Shape := ⟨2, ![800000, 16]⟩
abbrev S800000 : Shape := ⟨1, ![800000]⟩
abbrev S50000 : Shape := ⟨1, ![50000]⟩
abbrev S144x300 : Shape := ⟨2, ![144, 300]⟩
abbrev S300 : Shape := ⟨1, ![300]⟩
abbrev S300x300 : Shape := ⟨2, ![300, 300]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_
  bcast_S_S144x300 : S_.BroadcastsInDim S144x300 (![] : Fin 0 → Fin S144x300.rank)
  reducesTo_S144x300_S_d0_1 : S144x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_

variable [Facts]

def fn_part2 {F : FTy → Type} [FloatOps F] (main_arg7 : FVec F S300 .f32) (main_v33 : IVec S_ 1) : IVec S_ 1 :=
  let main_v34 : FVec F S300 .f32 := Host.absf main_arg7
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  main_v38

def fn_part1 {F : FTy → Type} [FloatOps F] (main_arg4 : FVec F S144x300 .f32) (main_arg5 : FVec F S300 .f32) (main_arg6 : FVec F S300x300 .f32) (main_arg7 : FVec F S300 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S144x300 .f32 := Host.absf main_arg4
  let main_cst_6 : FVec F S_ .f32 := constant S_ .f32 0x7F800000#32
  let main_v20 : FVec F S144x300 .f32 := broadcastInDim S144x300 ![] bcast_S_S144x300 main_cst_6
  let main_v21 : IVec S144x300 1 := cmpf .olt main_v19 main_v20
  let main_c_7 : IVec S_ 1 := constantI S_ 1 1#1
  let main_v22 : IVec S_ 1 := (fun x v => Host.reduce IntOp.andi x v reducesTo_S144x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x300 .f32 := Host.absf main_arg6
  let main_cst_10 : FVec F S_ .f32 := constant S_ .f32 0x7F800000#32
  let main_v30 : FVec F S300x300 .f32 := broadcastInDim S300x300 ![] bcast_S_S300x300 main_cst_10
  let main_v31 : IVec S300x300 1 := cmpf .olt main_v29 main_v30
  let main_c_11 : IVec S_ 1 := constantI S_ 1 1#1
  let main_v32 : IVec S_ 1 := (fun x v => Host.reduce IntOp.andi x v reducesTo_S300x300_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000x16 .f32) (main_arg2 : FVec F S800000 .f32) (main_arg3 : FVec F S50000 .f32) (main_arg4 : FVec F S144x300 .f32) (main_arg5 : FVec F S300 .f32) (main_arg6 : FVec F S300x300 .f32) (main_arg7 : FVec F S300 .f32) (main_arg8 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_arg5 main_arg6 main_arg7 main_v13 main_v16
-- ==== Kernel.lean ====
abbrev S50000x128 : Shape := ⟨2, ![50000, 128]⟩
abbrev S800000x16 : Shape := ⟨2, ![800000, 16]⟩
abbrev S800000 : Shape := ⟨1, ![800000]⟩
abbrev S50000 : Shape := ⟨1, ![50000]⟩
abbrev S144x300 : Shape := ⟨2, ![144, 300]⟩
abbrev S300 : Shape := ⟨1, ![300]⟩
abbrev S300x300 : Shape := ⟨2, ![300, 300]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S50000x16 : Shape := ⟨2, ![50000, 16]⟩
abbrev S50000x144 : Shape := ⟨2, ![50000, 144]⟩
abbrev S1x300 : Shape := ⟨2, ![1, 300]⟩
abbrev S50000x300 : Shape := ⟨2, ![50000, 300]⟩
abbrev S2000x144 : Shape := ⟨2, ![2000, 144]⟩
abbrev S2000x300 : Shape := ⟨2, ![2000, 300]⟩
abbrev S800000x300 : Shape := ⟨2, ![800000, 300]⟩
abbrev S50000x1 : Shape := ⟨2, ![50000, 1]⟩

abbrev nBuf : Space → Nat
  | .hbm => 53
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000, .f32⟩
  | .hbm, ⟨3, _⟩ => ⟨S50000, .f32⟩
  | .hbm, ⟨4, _⟩ => ⟨S144x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S800000x16, .f32⟩
  | .hbm, ⟨15, _⟩ => ⟨S800000x16, .f32⟩
  | .hbm, ⟨16, _⟩ => ⟨S_, .f32⟩
  | .hbm, ⟨17, _⟩ => ⟨S50000x16, .f32⟩
  | .hbm, ⟨18, _⟩ => ⟨S800000x1, .i32⟩
  | .hbm, ⟨19, _⟩ => ⟨S50000x16, .f32⟩
  | .hbm, ⟨20, _⟩ => ⟨S50000x144, .f32⟩
  | .hbm, ⟨21, _⟩ => ⟨S1x300, .f32⟩
  | .hbm, ⟨22, _⟩ => ⟨S50000x300, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x300, .f32⟩
  | .hbm, ⟨33, _⟩ => ⟨S800000x300, .f32⟩
  | .hbm, ⟨34, _⟩ => ⟨S800000x300, .f32⟩
  | .hbm, ⟨35, _⟩ => ⟨S_, .f32⟩
  | .hbm, ⟨36, _⟩ => ⟨S50000x300, .f32⟩
  | .hbm, ⟨37, _⟩ => ⟨S800000x1, .i32⟩
  | .hbm, ⟨38, _⟩ => ⟨S50000x300, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x300, .f32⟩
  | .hbm, ⟨50, _⟩ => ⟨S50000x300, .f32⟩
  | .hbm, ⟨51, _⟩ => ⟨S1x300, .f32⟩
  | .hbm, ⟨52, _⟩ => ⟨S50000x300, .f32⟩
  | .local _ .vmem, ⟨0, _⟩ => ⟨S2000x144, .f32⟩
  | .local _ .vmem, ⟨1, _⟩ => ⟨S2000x144, .f32⟩
  | .local _ .vmem, ⟨2, _⟩ => ⟨S144x300, .f32⟩
  | .local _ .vmem, ⟨3, _⟩ => ⟨S1x300, .f32⟩
  | .local _ .vmem, ⟨4, _⟩ => ⟨S2000x300, .f32⟩
  | .local _ .vmem, ⟨5, _⟩ => ⟨S2000x300, .f32⟩
  | .local _ .vmem, ⟨6, _⟩ => ⟨S2000x300, .f32⟩
  | .local _ .vmem, ⟨7, _⟩ => ⟨S2000x300, .f32⟩
  | .local _ .vmem, ⟨8, _⟩ => ⟨S2000x300, .f32⟩
  | .local _ .vmem, ⟨9, _⟩ => ⟨S2000x300, .f32⟩
  | .local _ .vmem, ⟨10, _⟩ => ⟨S300x300, .f32⟩
  | .local _ .vmem, ⟨11, _⟩ => ⟨S1x300, .f32⟩
  | .local _ .vmem, ⟨12, _⟩ => ⟨S2000x300, .f32⟩
  | .local _ .vmem, ⟨13, _⟩ => ⟨S2000x300, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x300 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  concatenates_S50000x128_S50000x16_S50000x144_d1 : Shape.Concatenates [S50000x128, S50000x16] S50000x144 1
  shapeCasts_S300_S1x300 : S300.ShapeCasts S1x300
  inb_S2000x144_S2000x144_0_0 : ∀ a, (![0, 0] : Fin 2 → Nat) a + S2000x144.size a ≤ S2000x144.size a
  h_S2000x144 : 0 < S2000x144.numel
  shapeCasts_S2000x144_S2000x144 : S2000x144.ShapeCasts S2000x144
  bitsLt_bf16_f32 : FTy.bits .bf16 < FTy.bits .f32
  inb_S144x300_S144x300_0_0 : ∀ a, (![0, 0] : Fin 2 → Nat) a + S144x300.size a ≤ S144x300.size a
  h_S144x300 : 0 < S144x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  bcast_S_S800000 : S_.BroadcastsInDim S800000 (![] : Fin 0 → Fin S800000.rank)
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x300_0_1 : S50000x1.BroadcastsInDim S50000x300 (![0, 1] : Fin 2 → Fin S50000x300.rank)
  shapeCasts_S2000x300_S2000x300 : S2000x300.ShapeCasts S2000x300
  inb_S300x300_S300x300_0_0 : ∀ a, (![0, 0] : Fin 2 → Nat) a + S300x300.size a ≤ S300x300.size a
  h_S300x300 : 0 < S300x300.numel
  scatter_S50000x16_S800000x1_S800000x16_1_0_0_1_wf : ScatterDims.WF S50000x16 S800000x1 S800000x16 [1] [0] [0] 1
  dot_S2000x144_S144x300_S2000x300_1_0_0_1_n_n_wf : DotDims.WF S2000x144 S144x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  scatter_S50000_S800000x1_S800000_n_0_0_1_wf : ScatterDims.WF S50000 S800000x1 S800000 [] [0] [0] 1
  dot_S2000x300_S300x300_S2000x300_1_0_0_1_n_n_wf : DotDims.WF S2000x300 S300x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x144.size a ≤ S50000x144.size a
  hwx0_0 : ∀ i : grid0.Coords, EltTy.bits .f32 = 32 ∨ (Rect.block (s := S50000x144) S2000x144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S144x300.size a ≤ S144x300.size a
  hwx0_1 : ∀ i : grid0.Coords, EltTy.bits .f32 = 32 ∨ (Rect.block (s := S144x300) S144x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S50000x300.size a
  hwx0_3 : ∀ i : grid0.Coords, EltTy.bits .f32 = 32 ∨ (Rect.block (s := S50000x300) S2000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S50000x300.size a
  hwx1_1 : ∀ i : grid1.Coords, EltTy.bits .f32 = 32 ∨ (Rect.block (s := S50000x300) S2000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x300.size a ≤ S50000x300.size a
  hwx1_4 : ∀ i : grid1.Coords, EltTy.bits .f32 = 32 ∨ (Rect.block (s := S50000x300) S2000x300.size (cc1_transform_4 i) (hinb1_4 i)).WholeWords (EltTy.packing .f32)

variable [Facts₀]

def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S2000x144_S144x300_S2000x300_1_0_0_1_n_n : DotDims S2000x144 S144x300 S2000x300 where
  lhsContracting := [1]
  rhsContracting := [0]
  lhsNonContracting := [0]
  rhsNonContracting := [1]
  lhsBatch := []
  rhsBatch := []
  wf := dot_S2000x144_S144x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf

abbrev win0_0 : Pipeline.Window sig grid0 :=
  Pipeline.Window.ofSpec (Memref.whole main_v10) S2000x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S144x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x300.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x16 : Shape := ⟨2, ![800000, 16]⟩
abbrev S800000 : Shape := ⟨1, ![800000]⟩
abbrev S50000 : Shape := ⟨1, ![50000]⟩
abbrev S144x300 : Shape := ⟨2, ![144, 300]⟩
abbrev S300 : Shape := ⟨1, ![300]⟩
abbrev S300x300 : Shape := ⟨2, ![300, 300]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S50000x16 : Shape := ⟨2, ![50000, 16]⟩
abbrev S50000x144 : Shape := ⟨2, ![50000, 144]⟩
abbrev S50000x300 : Shape := ⟨2, ![50000, 300]⟩
abbrev S1x300 : Shape := ⟨2, ![1, 300]⟩
abbrev S800000x300 : Shape := ⟨2, ![800000, 300]⟩
abbrev S50000x1 : Shape := ⟨2, ![50000, 1]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000, .f32⟩
  | .hbm, ⟨3, _⟩ => ⟨S50000, .f32⟩
  | .hbm, ⟨4, _⟩ => ⟨S144x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S800000x16, .f32⟩
  | .hbm, ⟨15, _⟩ => ⟨S800000x16, .f32⟩
  | .hbm, ⟨16, _⟩ => ⟨S_, .f32⟩
  | .hbm, ⟨17, _⟩ => ⟨S50000x16, .f32⟩
  | .hbm, ⟨18, _⟩ => ⟨S800000x1, .i32⟩
  | .hbm, ⟨19, _⟩ => ⟨S50000x16, .f32⟩
  | .hbm, ⟨20, _⟩ => ⟨S50000x144, .f32⟩
  | .hbm, ⟨21, _⟩ => ⟨S50000x300, .f32⟩
  | .hbm, ⟨22, _⟩ => ⟨S1x300, .f32⟩
  | .hbm, ⟨23, _⟩ => ⟨S50000x300, .f32⟩
  | .hbm, ⟨24, _⟩ => ⟨S50000x300, .f32⟩
  | .hbm, ⟨25, _⟩ => ⟨S_, .f32⟩
  | .hbm, ⟨26, _⟩ => ⟨S50000x300, .f32⟩
  | .hbm, ⟨27, _⟩ => ⟨S50000x300, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x300, .f32⟩
  | .hbm, ⟨38, _⟩ => ⟨S800000x300, .f32⟩
  | .hbm, ⟨39, _⟩ => ⟨S800000x300, .f32⟩
  | .hbm, ⟨40, _⟩ => ⟨S_, .f32⟩
  | .hbm, ⟨41, _⟩ => ⟨S50000x300, .f32⟩
  | .hbm, ⟨42, _⟩ => ⟨S800000x1, .i32⟩
  | .hbm, ⟨43, _⟩ => ⟨S50000x300, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S50000, .f32⟩
  | .hbm, ⟨48, _⟩ => ⟨S800000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x300, .f32⟩
  | .hbm, ⟨55, _⟩ => ⟨S50000x300, .f32⟩
  | .hbm, ⟨56, _⟩ => ⟨S50000x300, .f32⟩
  | .hbm, ⟨57, _⟩ => ⟨S50000x300, .f32⟩
  | .hbm, ⟨58, _⟩ => ⟨S1x300, .f32⟩
  | .hbm, ⟨59, _⟩ => ⟨S50000x300, .f32⟩
  | .hbm, ⟨60, _⟩ => ⟨S50000x300, .f32⟩
  | .hbm, ⟨61, _⟩ => ⟨S_, .f32⟩
  | .hbm, ⟨62, _⟩ => ⟨S50000x300, .f32⟩
  | .hbm, ⟨63, _⟩ => ⟨S50000x300, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  concatenates_S50000x128_S50000x16_S50000x144_d1 : Shape.Concatenates [S50000x128, S50000x16] S50000x144 1
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S_S800000 : S_.BroadcastsInDim S800000 (![] : Fin 0 → Fin S800000.rank)
  bcast_S800000x1_S800000x300_0_1 : S800000x1.BroadcastsInDim S800000x300 (![0, 1] : Fin 2 → Fin S800000x300.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x300_0_1 : S50000x1.BroadcastsInDim S50000x300 (![0, 1] : Fin 2 → Fin S50000x300.rank)
  scatter_S50000x16_S800000x1_S800000x16_1_0_0_1_wf : ScatterDims.WF S50000x16 S800000x1 S800000x16 [1] [0] [0] 1
  dot_S50000x144_S144x300_S50000x300_1_0_0_1_n_n_wf : DotDims.WF S50000x144 S144x300 S50000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  scatter_S50000_S800000x1_S800000_n_0_0_1_wf : ScatterDims.WF S50000 S800000x1 S800000 [] [0] [0] 1
  dot_S50000x300_S300x300_S50000x300_1_0_0_1_n_n_wf : DotDims.WF S50000x300 S300x300 S50000x300 [1] [0] [0] [1] [] []

variable [Facts₀]

def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x144_S144x300_S50000x300_1_0_0_1_n_n : DotDims S50000x144 S144x300 S50000x300 where
  lhsContracting := [1]
  rhsContracting := [0]
  lhsNonContracting := [0]
  rhsNonContracting := [1]
  lhsBatch := []
  rhsBatch := []
  wf := dot_S50000x144_S144x300_S50000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf

class Facts : Prop extends Facts₀ where

variable [Facts]
-- ==== Proof.OutRun.lean ====
/-
  The idealized kernel's run, with its two results named.

  @main is four segments: the host operations that build the node input (the node features beside the weighted sums
  of incoming edge features), the first dense layer as a grid of 25 row blocks, the host operations that gather,
  weight, scatter-add and average the hidden rows over the incoming edges, and the second dense layer, again 25 row
  blocks. The contents of every unscoped buffer at the four boundaries are a fold from the launch memory; the last
  of them, after the second layer's write-backs, is what every final state holds. Read at the two result buffers it
  gives the results; read at an argument it walks back to the launch memory, since nothing writes an argument.
-/
import proofs.«160767_j57681410785500_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the second layer's output and the first
    layer's output at what the last boundary holds for their buffers, and every argument as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Out

end
-- ==== Proof.Dense.lean ====
/-
  The two dense layers' bodies, entry by entry, on the extended reals.

  Each body loads a block of 2000 rows, contracts it with the whole weight matrix into a zero accumulator, adds the
  bias row to every row and takes the maximum with zero (the second body first adds the same rows of the first
  layer's output). The changes of float format on the way into the contraction are the identity on the extended reals,
  a cast to the same shape is the identity, and the contraction into a zero accumulator is the plain sum over the
  contraction axis. So entry (p, q) of what a body stores is
      max (∑ k, a (p, k) · w (k, q) + b (0, q)) 0        and        max ((h (p, q) + ∑ k, a (p, k) · w (k, q)) + b (0, q)) 0.
-/
import proofs.«160767_j57681410785500_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-! ## The first layer's contraction: 2000 × 144 by 144 × 300 -/

abbrev D0 : DotDims S2000x144 S144x300 S2000x300 := dot_S2000x144_S144x300_S2000x300_1_0_0_1_n_n

theorem lhs0_row (i : S2000x300.Idx) (q : D0.contr.Idx) : (D0.lhsIdx i q 0).val = (i 0).val := by
  unfold DotDims.lhsIdx
  rw [dif_neg (show ¬(0 : Fin S2000x144.rank) ∈ D0.lhsBatch by decide), dif_pos (show (0 : Fin S2000x144.rank) ∈ D0.lhsNonContracting by decide)]
  rfl
theorem lhs0_col (i : S2000x300.Idx) (q : D0.contr.Idx) : (D0.lhsIdx i q 1).val = (q ⟨0, by decide⟩).val :=
  D0.lhsIdx_val_of_single rfl i q
theorem rhs0_row (i : S2000x300.Idx) (q : D0.contr.Idx) : (D0.rhsIdx i q 0).val = (q ⟨0, by decide⟩).val :=
  D0.rhsIdx_val_of_single rfl i q
theorem rhs0_col (i : S2000x300.Idx) (q : D0.contr.Idx) : (D0.rhsIdx i q 1).val = (i 1).val := by
  unfold DotDims.rhsIdx
  rw [dif_neg (show ¬(1 : Fin S144x300.rank) ∈ D0.rhsBatch by decide), dif_pos (show (1 : Fin S144x300.rank) ∈ D0.rhsNonContracting by decide)]
  rfl

/-- Entry (p, q) of the product of a 2000-row block with the 144 × 300 weights, accumulated from zero: the sum over the
    144 contracted positions. -/
theorem matmul0_apply (a : FVec Ideal S2000x144 .bf16) (w : FVec Ideal S144x300 .bf16) (p : Fin 2000) (q : Fin 300) :
    matmul D0 none a w (constant S2000x300 .f32 0x00000000#32) (ix2 p q) = ∑ k : Fin 144, a (ix2 p k) * w (ix2 k q) := by
  simp only [matmul]
  rw [Ideal.matmul_constant_zero_apply, ← Equiv.sum_comp (contrEquiv1 D0 144 rfl rfl).symm]
  refine Finset.sum_congr rfl fun k _ => ?_
  have hk := contrEquiv1_symm_val D0 144 rfl rfl k
  have el : D0.lhsIdx (ix2 p q) ((contrEquiv1 D0 144 rfl rfl).symm k) = ix2 p k := funext fun ax => Fin.ext (by
    match ax with
    | ⟨0, _⟩ => exact lhs0_row _ _
    | ⟨1, _⟩ => exact (lhs0_col _ _).trans hk)
  have er : D0.rhsIdx (ix2 p q) ((contrEquiv1 D0 144 rfl rfl).symm k) = ix2 k q := funext fun ax => Fin.ext (by
    match ax with
    | ⟨0, _⟩ => exact (rhs0_row _ _).trans hk
    | ⟨1, _⟩ => exact rhs0_col _ _)
  rw [el, er]

/-- What the first layer's body stores at (p, q), from the three blocks it loads. -/
theorem pay0_apply (x0 : Vec Ideal S2000x144 .f32) (x1 : Vec Ideal S144x300 .f32) (x2 : Vec Ideal S1x300 .f32) (p : Fin 2000) (q : Fin 300) :
    k0_pay1 x0 x1 x2 (ix2 p q)
      = max ((∑ k : Fin 144, x0 (ix2 p k) * x1 (ix2 k q)) + x2 (ix2 (0 : Fin 1) q)) (Ideal.ofBits .f32 0x00000000#32) := by
  unfold k0_pay1
  show max (matmul (F := Ideal) D0 none (truncf (F := Ideal) .bf16 (shapeCast S2000x144 x0 shapeCasts_S2000x144_S2000x144) bitsLt_bf16_f32)
          (truncf (F := Ideal) .bf16 x1 bitsLt_bf16_f32) (constant (F := Ideal) S2000x300 .f32 0x00000000#32) (ix2 p q)
      + broadcastTo S2000x300 (shapeCast S1x300 x2 shapeCasts_S1x300_S1x300) broadcasts_S1x300_S2000x300 (ix2 p q)) (Ideal.ofBits .f32 0x00000000#32) = _
  rw [matmul0_apply, broadcastTo_1b_ab_apply, shapeCast_self, shapeCast_self]
  rfl

/-! ## The second layer's contraction: 2000 × 300 by 300 × 300 -/

abbrev D1 : DotDims S2000x300 S300x300 S2000x300 := dot_S2000x300_S300x300_S2000x300_1_0_0_1_n_n

theorem lhs1_row (i : S2000x300.Idx) (q : D1.contr.Idx) : (D1.lhsIdx i q 0).val = (i 0).val := by
  unfold DotDims.lhsIdx
  rw [dif_neg (show ¬(0 : Fin S2000x300.rank) ∈ D1.lhsBatch by decide), dif_pos (show (0 : Fin S2000x300.rank) ∈ D1.lhsNonContracting by decide)]
  rfl
theorem lhs1_col (i : S2000x300.Idx) (q : D1.contr.Idx) : (D1.lhsIdx i q 1).val = (q ⟨0, by decide⟩).val :=
  D1.lhsIdx_val_of_single rfl i q
theorem rhs1_row (i : S2000x300.Idx) (q : D1.contr.Idx) : (D1.rhsIdx i q 0).val = (q ⟨0, by decide⟩).val :=
  D1.rhsIdx_val_of_single rfl i q
theorem rhs1_col (i : S2000x300.Idx) (q : D1.contr.Idx) : (D1.rhsIdx i q 1).val = (i 1).val := by
  unfold DotDims.rhsIdx
  rw [dif_neg (show ¬(1 : Fin S300x300.rank) ∈ D1.rhsBatch by decide), dif_pos (show (1 : Fin S300x300.rank) ∈ D1.rhsNonContracting by decide)]
  rfl

/-- Entry (p, q) of the product of a 2000-row block with the 300 × 300 weights, accumulated from zero: the sum over the
    300 contracted positions. -/
theorem matmul1_apply (a : FVec Ideal S2000x300 .bf16) (w : FVec Ideal S300x300 .bf16) (p : Fin 2000) (q : Fin 300) :
    matmul D1 none a w (constant S2000x300 .f32 0x00000000#32) (ix2 p q) = ∑ k : Fin 300, a (ix2 p k) * w (ix2 k q) := by
  simp only [matmul]
  rw [Ideal.matmul_constant_zero_apply, ← Equiv.sum_comp (contrEquiv1 D1 300 rfl rfl).symm]
  refine Finset.sum_congr rfl fun k _ => ?_
  have hk := contrEquiv1_symm_val D1 300 rfl rfl k
  have el : D1.lhsIdx (ix2 p q) ((contrEquiv1 D1 300 rfl rfl).symm k) = ix2 p k := funext fun ax => Fin.ext (by
    match ax with
    | ⟨0, _⟩ => exact lhs1_row _ _
    | ⟨1, _⟩ => exact (lhs1_col _ _).trans hk)
  have er : D1.rhsIdx (ix2 p q) ((contrEquiv1 D1 300 rfl rfl).symm k) = ix2 k q := funext fun ax => Fin.ext (by
    match ax with
    | ⟨0, _⟩ => exact (rhs1_row _ _).trans hk
    | ⟨1, _⟩ => exact rhs1_col _ _)
  rw [el, er]

/-- What the second layer's body stores at (p, q): `g` the block of averaged messages, `w` the weights, `h` the same
    rows of the first layer's output, `b` the bias row. -/
theorem pay1_apply (g : Vec Ideal S2000x300 .f32) (w : Vec Ideal S300x300 .f32) (h : Vec Ideal S2000x300 .f32) (b : Vec Ideal S1x300 .f32)
    (p : Fin 2000) (q : Fin 300) :
    k1_pay1 g w h b (ix2 p q)
      = max ((h (ix2 p q) + ∑ k : Fin 300, g (ix2 p k) * w (ix2 k q)) + b (ix2 (0 : Fin 1) q)) (Ideal.ofBits .f32 0x00000000#32) := by
  unfold k1_pay1
  show max ((shapeCast S2000x300 h shapeCasts_S2000x300_S2000x300 (ix2 p q)
        + matmul (F := Ideal) D1 none (truncf (F := Ideal) .bf16 (shapeCast S2000x300 g shapeCasts_S2000x300_S2000x300) bitsLt_bf16_f32)
            (truncf (F := Ideal) .bf16 w bitsLt_bf16_f32) (constant (F := Ideal) S2000x300 .f32 0x00000000#32) (ix2 p q))
      + broadcastTo S2000x300 (shapeCast S1x300 b shapeCasts_S1x300_S1x300) broadcasts_S1x300_S2000x300 (ix2 p q)) (Ideal.ofBits .f32 0x00000000#32) = _
  rw [matmul1_apply, broadcastTo_1b_ab_apply, shapeCast_self, shapeCast_self, shapeCast_self]
  rfl

end Cert.KernelIdeal.Dense

end
-- ==== Proof.Layers.lean ====
/-
  The two dense layers as functions of whole arrays, entry by entry on the extended reals.

  First layer: from the node input `xc` (50000 × 144), the weights `w` (144 × 300) and the bias row `b` (1 × 300),
      h0 (r, q) = max (∑ k, xc (r, k) · w (k, q) + b (0, q)) 0.
  Second layer: from the first layer's output `h`, the averaged messages `g` (both 50000 × 300), the weights `w`
  (300 × 300) and the bias row `b`,
      h1 (r, q) = max ((h (r, q) + ∑ k, g (r, k) · w (k, q)) + b (0, q)) 0.
  The zero is kept as the float word it is written with: both programs write the same word.
-/
import Idealize.ShloMosaic.Lib.ValueIdx
import Idealize.ShloMosaic.PureOps.Ideal

noncomputable section

namespace Cert.Layers

open Idealize.ShloMosaic Idealize.ShloMosaic.ValueIdx

/-- The first layer: a row's contraction with the weights, plus the bias, clamped below at zero. -/
def layer0 (xc : (⟨2, ![50000, 144]⟩ : Shape).Idx → EReal) (w : (⟨2, ![144, 300]⟩ : Shape).Idx → EReal)
    (b : (⟨2, ![1, 300]⟩ : Shape).Idx → EReal) : (⟨2, ![50000, 300]⟩ : Shape).Idx → EReal :=
  fun i => max ((∑ k : Fin 144, xc (ix2 (n0 := 50000) (i 0) k) * w (ix2 k (n1 := 300) (i 1))) + b (ix2 (0 : Fin 1) (n1 := 300) (i 1)))
    (Ideal.ofBits .f32 0x00000000#32)

theorem layer0_ix2 (xc : (⟨2, ![50000, 144]⟩ : Shape).Idx → EReal) (w : (⟨2, ![144, 300]⟩ : Shape).Idx → EReal)
    (b : (⟨2, ![1, 300]⟩ : Shape).Idx → EReal) (r : Fin 50000) (q : Fin 300) :
    layer0 xc w b (ix2 r q) = max ((∑ k : Fin 144, xc (ix2 r k) * w (ix2 k q)) + b (ix2 (0 : Fin 1) q)) (Ideal.ofBits .f32 0x00000000#32) := rfl

/-- The second layer: the residual row plus the averaged messages' contraction with the weights, plus the bias, clamped
    below at zero. -/
def layer1 (h g : (⟨2, ![50000, 300]⟩ : Shape).Idx → EReal) (w : (⟨2, ![300, 300]⟩ : Shape).Idx → EReal)
    (b : (⟨2, ![1, 300]⟩ : Shape).Idx → EReal) : (⟨2, ![50000, 300]⟩ : Shape).Idx → EReal :=
  fun i => max ((h (ix2 (n0 := 50000) (i 0) (n1 := 300) (i 1)) + ∑ k : Fin 300, g (ix2 (n0 := 50000) (i 0) k) * w (ix2 k (n1 := 300) (i 1)))
      + b (ix2 (0 : Fin 1) (n1 := 300) (i 1))) (Ideal.ofBits .f32 0x00000000#32)

theorem layer1_ix2 (h g : (⟨2, ![50000, 300]⟩ : Shape).Idx → EReal) (w : (⟨2, ![300, 300]⟩ : Shape).Idx → EReal)
    (b : (⟨2, ![1, 300]⟩ : Shape).Idx → EReal) (r : Fin 50000) (q : Fin 300) :
    layer1 h g w b (ix2 r q)
      = max ((h (ix2 r q) + ∑ k : Fin 300, g (ix2 r k) * w (ix2 k q)) + b (ix2 (0 : Fin 1) q)) (Ideal.ofBits .f32 0x00000000#32) := rfl

end Cert.Layers

end
-- ==== Proof.Rows0.lean ====
/-
  The first dense layer over the whole node table.

  The 50000 rows are cut into 25 blocks of 2000; grid point t loads rows 2000·t … 2000·t + 1999 of the node input,
  the whole 144 × 300 weight matrix and the one bias row, and writes back the same rows of the output. Row r of the
  output is therefore written exactly once, by point r / 2000, and what it holds depends only on row r of the input:
      out (r, q) = max (∑ k, xc (r, k) · w (k, q) + b (0, q)) 0.
  So after the 25 write-backs the output array is this one function of the three arrays the layer finds.
-/
import proofs.«160767_j57681410785500_1_alg».proof.Proof.Gen.KernelIdeal.Frame
import proofs.«160767_j57681410785500_1_alg».proof.Proof.Dense
import proofs.«160767_j57681410785500_1_alg».proof.Proof.Layers

set_option maxRecDepth 16384

noncomputable section

namespace Cert.KernelIdeal.Rows0

open Cert.KernelIdeal Cert.KernelIdeal.Gen Cert.KernelIdeal.Dense Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the two row-blocked windows at block row `t`, the weights and the bias
    whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt25 (t : Fin cfg0.N) : t.val < 25 := Nat.lt_of_lt_of_eq t.isLt N_0

/-- Row `p` of block `t` is row `2000·t + p` of the table. -/
def row (t : Fin cfg0.N) (p : Fin 2000) : Fin 50000 := ⟨t.val * 2000 + p.val, by have := lt25 t; have := p.isLt; omega⟩

theorem emb_in (t : Fin cfg0.N) (p : Fin 2000) (k : Fin 144) : ((cfg0.win 0).blk t).view.emb (ix2 p k) = ix2 (row t p) k := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 144 + 1 * k.val = k.val; omega

theorem emb_w (t : Fin cfg0.N) (k : Fin 144) (q : Fin 300) : ((cfg0.win 1).blk t).view.emb (ix2 k q) = ix2 k q := by
  obtain ⟨-, -, e2, e3, -⟩ := idx_facts t
  funext a; apply Fin.ext
  match a with
  | ⟨0, _⟩ => show win0_1.index t (0 : Fin 2) * 144 + 1 * k.val = k.val; omega
  | ⟨1, _⟩ => show win0_1.index t (1 : Fin 2) * 300 + 1 * q.val = q.val; omega

theorem emb_b (t : Fin cfg0.N) (q : Fin 300) : ((cfg0.win 2).blk t).view.emb (ix2 (0 : Fin 1) q) = ix2 (0 : Fin 1) q := by
  obtain ⟨-, -, -, -, e4, e5, -⟩ := idx_facts t
  funext a; apply Fin.ext
  match a with
  | ⟨0, _⟩ => show win0_2.index t (0 : Fin 2) * 1 + 1 * 0 = 0; omega
  | ⟨1, _⟩ => show win0_2.index t (1 : Fin 2) * 300 + 1 * q.val = q.val; omega

theorem emb_out (t : Fin cfg0.N) (p : Fin 2000) (q : Fin 300) : ((cfg0.win 3).blk t).view.emb (ix2 p q) = ix2 (row t p) q := by
  obtain ⟨-, -, -, -, -, -, e6, e7⟩ := idx_facts t
  funext a; apply Fin.ext
  match a with
  | ⟨0, _⟩ => show win0_3.index t (0 : Fin 2) * 2000 + 1 * p.val = t.val * 2000 + p.val; omega
  | ⟨1, _⟩ => show win0_3.index t (1 : Fin 2) * 300 + 1 * q.val = q.val; omega

/-- What point `t` writes back is block `t` of the layer's function of the arrays as the region finds them. -/
theorem flushed_eq (c : Dev nD) (t : Fin cfg0.N) :
    (dat0 V c).flushed 3 t = ((cfg0.win 3).blk t).view.read (Elt Ideal) (layer0 (V c main_v10) (V c main_arg4) (V c main_v11)) := by
  show (cfg0.win 3).cut (grid0.coords t) ((dat0 V c).after 3 t) = _
  rw [after0_3]
  unfold out0_3
  rw [View.canon_unit_zero hz]
  simp only [View.ld_unit_zero (S := S2000x144) hz, View.ld_unit_zero (S := S144x300) hz, View.ld_unit_zero (S := S1x300) hz]
  funext j
  obtain ⟨p, q, rfl⟩ : ∃ (p : Fin 2000) (q : Fin 300), j = ix2 p q := ⟨j 0, j 1, eq_ix2 j⟩
  show k0_pay1 (iblk0 V c 0 t) (iblk0 V c 1 t) (iblk0 V c 2 t) (ix2 p q)
    = layer0 (V c main_v10) (V c main_arg4) (V c main_v11) (((cfg0.win 3).blk t).view.emb (ix2 p q))
  refine (pay0_apply (iblk0 V c 0 t) (iblk0 V c 1 t) (iblk0 V c 2 t) p q).trans ?_
  rw [emb_out, layer0_ix2]
  have hin : ∀ k : Fin 144, iblk0 V c 0 t (ix2 p k) = V c main_v10 (ix2 (row t p) k) := fun k => by
    show V c main_v10 (((cfg0.win 0).blk t).view.emb (ix2 p k)) = _
    rw [emb_in]
  have hw : ∀ k : Fin 144, iblk0 V c 1 t (ix2 k q) = V c main_arg4 (ix2 k q) := fun k => by
    show V c main_arg4 (((cfg0.win 1).blk t).view.emb (ix2 k q)) = _
    rw [emb_w]
  have hb : iblk0 V c 2 t (ix2 (0 : Fin 1) q) = V c main_v11 (ix2 (0 : Fin 1) q) := by
    show V c main_v11 (((cfg0.win 2).blk t).view.emb (ix2 (0 : Fin 1) q)) = _
    rw [emb_b]
  rw [hb]
  exact congrArg (fun s => max (s + V c main_v11 (ix2 (0 : Fin 1) q)) (Ideal.ofBits .f32 0x00000000#32))
    (Finset.sum_congr rfl fun k _ => by rw [hin k, hw k])

/-- An index of the output array is in point `t`'s block iff each coordinate is in the block's range on its axis. -/
theorem mem_blk (t : Fin cfg0.N) (i : S50000x300.Idx) :
    i ∈ ((cfg0.win 3).blk t).view.set ↔ ∀ a : Fin 2, win0_3.index t a * S2000x300.size a ≤ (i a).val ∧ (i a).val < win0_3.index t a * S2000x300.size a + S2000x300.size a := by
  show i ∈ ((View.whole main_v12).slice (win0_3.rect t)).set ↔ _
  rw [View.set_slice_whole, Rect.mem_set_unit]
  exact Iff.rfl

/-- Every row of the table is in the block of the point numbered by the row's quotient by 2000. -/
theorem cover (i : S50000x300.Idx) : ∃ t : Fin cfg0.N, (cfg0.win 3).flush t = true ∧ i ∈ ((cfg0.win 3).blk t).view.set := by
  have hi0 : (i 0).val < 50000 := (i 0).isLt
  have hi1 : (i 1).val < 300 := (i 1).isLt
  have hN : grid0.N = 25 := N_0
  let t : Fin cfg0.N := ⟨(i 0).val / 2000, by show (i 0).val / 2000 < grid0.N; omega⟩
  have ht : t.val = (i 0).val / 2000 := rfl
  obtain ⟨-, -, -, -, -, -, e6, e7⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 300 ≤ (i 1).val ∧ (i 1).val < win0_3.index t (1 : Fin 2) * 300 + 300; omega

/-- The output array after the 25 write-backs. -/
theorem final (c : Dev nD) : (dat0 V c).arrAt 3 cfg0.N = layer0 (V c main_v10) (V c main_arg4) (V c main_v11) :=
  (dat0 V c).arrAt_eq_of_cover 3 _ (fun t _ => flushed_eq V c t) cover

end Cert.KernelIdeal.Rows0

end
-- ==== Proof.Rows1.lean ====
/-
  The second dense layer over the whole node table.

  Again 25 blocks of 2000 rows. Grid point t loads rows 2000·t … 2000·t + 1999 of the first layer's output and of the
  averaged messages, the whole 300 × 300 weight matrix and the one bias row, and writes back the same rows of the
  output. Row r of the output is written once, by point r / 2000, from row r of the two row-blocked inputs:
      out (r, q) = max ((h (r, q) + ∑ k, g (r, k) · w (k, q)) + b (0, q)) 0.
  So after the 25 write-backs the output array is this one function of the four arrays the layer finds.
-/
import proofs.«160767_j57681410785500_1_alg».proof.Proof.Gen.KernelIdeal.Frame
import proofs.«160767_j57681410785500_1_alg».proof.Proof.Dense
import proofs.«160767_j57681410785500_1_alg».proof.Proof.Layers

set_option maxRecDepth 16384

noncomputable section

namespace Cert.KernelIdeal.Rows1

open Cert.KernelIdeal Cert.KernelIdeal.Gen Cert.KernelIdeal.Dense Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the three row-blocked windows at block row `t`, the weights and the
    bias whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt25 (t : Fin cfg1.N) : t.val < 25 := Nat.lt_of_lt_of_eq t.isLt N_1

/-- Row `p` of block `t` is row `2000·t + p` of the table. -/
def row (t : Fin cfg1.N) (p : Fin 2000) : Fin 50000 := ⟨t.val * 2000 + p.val, by have := lt25 t; have := p.isLt; omega⟩

theorem emb_h (t : Fin cfg1.N) (p : Fin 2000) (q : Fin 300) : ((cfg1.win 0).blk t).view.emb (ix2 p q) = ix2 (row t p) q := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 300 + 1 * q.val = q.val; omega

theorem emb_g (t : Fin cfg1.N) (p : Fin 2000) (k : Fin 300) : ((cfg1.win 1).blk t).view.emb (ix2 p k) = ix2 (row t p) k := by
  obtain ⟨-, -, e2, e3, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 300 + 1 * k.val = k.val; omega

theorem emb_w (t : Fin cfg1.N) (k : Fin 300) (q : Fin 300) : ((cfg1.win 2).blk t).view.emb (ix2 k q) = ix2 k q := by
  obtain ⟨-, -, -, -, e4, e5, -⟩ := idx_facts t
  funext a; apply Fin.ext
  match a with
  | ⟨0, _⟩ => show win1_2.index t (0 : Fin 2) * 300 + 1 * k.val = k.val; omega
  | ⟨1, _⟩ => show win1_2.index t (1 : Fin 2) * 300 + 1 * q.val = q.val; omega

theorem emb_b (t : Fin cfg1.N) (q : Fin 300) : ((cfg1.win 3).blk t).view.emb (ix2 (0 : Fin 1) q) = ix2 (0 : Fin 1) q := by
  obtain ⟨-, -, -, -, -, -, e6, e7, -⟩ := idx_facts t
  funext a; apply Fin.ext
  match a with
  | ⟨0, _⟩ => show win1_3.index t (0 : Fin 2) * 1 + 1 * 0 = 0; omega
  | ⟨1, _⟩ => show win1_3.index t (1 : Fin 2) * 300 + 1 * q.val = q.val; omega

theorem emb_out (t : Fin cfg1.N) (p : Fin 2000) (q : Fin 300) : ((cfg1.win 4).blk t).view.emb (ix2 p q) = ix2 (row t p) q := by
  obtain ⟨-, -, -, -, -, -, -, -, e8, e9⟩ := idx_facts t
  funext a; apply Fin.ext
  match a with
  | ⟨0, _⟩ => show win1_4.index t (0 : Fin 2) * 2000 + 1 * p.val = t.val * 2000 + p.val; omega
  | ⟨1, _⟩ => show win1_4.index t (1 : Fin 2) * 300 + 1 * q.val = q.val; omega

/-- What point `t` writes back is block `t` of the layer's function of the arrays as the region finds them. -/
theorem flushed_eq (c : Dev nD) (t : Fin cfg1.N) :
    (dat1 V c).flushed 4 t
      = ((cfg1.win 4).blk t).view.read (Elt Ideal) (layer1 (V c main_v12) (V c main_v34) (V c main_arg6) (V c main_v35)) := by
  show (cfg1.win 4).cut (grid1.coords t) ((dat1 V c).after 4 t) = _
  rw [after1_4]
  unfold out1_4
  rw [View.canon_unit_zero hz]
  simp only [View.ld_unit_zero (S := S2000x300) hz, View.ld_unit_zero (S := S300x300) hz, View.ld_unit_zero (S := S1x300) hz]
  funext j
  obtain ⟨p, q, rfl⟩ : ∃ (p : Fin 2000) (q : Fin 300), j = ix2 p q := ⟨j 0, j 1, eq_ix2 j⟩
  show k1_pay1 (iblk1 V c 1 t) (iblk1 V c 2 t) (iblk1 V c 0 t) (iblk1 V c 3 t) (ix2 p q)
    = layer1 (V c main_v12) (V c main_v34) (V c main_arg6) (V c main_v35) (((cfg1.win 4).blk t).view.emb (ix2 p q))
  refine (pay1_apply (iblk1 V c 1 t) (iblk1 V c 2 t) (iblk1 V c 0 t) (iblk1 V c 3 t) p q).trans ?_
  rw [emb_out, layer1_ix2]
  have hh : iblk1 V c 0 t (ix2 p q) = V c main_v12 (ix2 (row t p) q) := by
    show V c main_v12 (((cfg1.win 0).blk t).view.emb (ix2 p q)) = _
    rw [emb_h]
  have hg : ∀ k : Fin 300, iblk1 V c 1 t (ix2 p k) = V c main_v34 (ix2 (row t p) k) := fun k => by
    show V c main_v34 (((cfg1.win 1).blk t).view.emb (ix2 p k)) = _
    rw [emb_g]
  have hw : ∀ k : Fin 300, iblk1 V c 2 t (ix2 k q) = V c main_arg6 (ix2 k q) := fun k => by
    show V c main_arg6 (((cfg1.win 2).blk t).view.emb (ix2 k q)) = _
    rw [emb_w]
  have hb : iblk1 V c 3 t (ix2 (0 : Fin 1) q) = V c main_v35 (ix2 (0 : Fin 1) q) := by
    show V c main_v35 (((cfg1.win 3).blk t).view.emb (ix2 (0 : Fin 1) q)) = _
    rw [emb_b]
  simp only [hh, hb, hg, hw]

/-- An index of the output array is in point `t`'s block iff each coordinate is in the block's range on its axis. -/
theorem mem_blk (t : Fin cfg1.N) (i : S50000x300.Idx) :
    i ∈ ((cfg1.win 4).blk t).view.set ↔ ∀ a : Fin 2, win1_4.index t a * S2000x300.size a ≤ (i a).val ∧ (i a).val < win1_4.index t a * S2000x300.size a + S2000x300.size a := by
  show i ∈ ((View.whole main_v36).slice (win1_4.rect t)).set ↔ _
  rw [View.set_slice_whole, Rect.mem_set_unit]
  exact Iff.rfl

/-- Every row of the table is in the block of the point numbered by the row's quotient by 2000. -/
theorem cover (i : S50000x300.Idx) : ∃ t : Fin cfg1.N, (cfg1.win 4).flush t = true ∧ i ∈ ((cfg1.win 4).blk t).view.set := by
  have hi0 : (i 0).val < 50000 := (i 0).isLt
  have hi1 : (i 1).val < 300 := (i 1).isLt
  have hN : grid1.N = 25 := N_1
  let t : Fin cfg1.N := ⟨(i 0).val / 2000, by show (i 0).val / 2000 < grid1.N; omega⟩
  have ht : t.val = (i 0).val / 2000 := rfl
  obtain ⟨-, -, -, -, -, -, -, -, e8, e9⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 300 ≤ (i 1).val ∧ (i 1).val < win1_4.index t (1 : Fin 2) * 300 + 300; omega

/-- The output array after the 25 write-backs. -/
theorem final (c : Dev nD) :
    (dat1 V c).arrAt 4 cfg1.N = layer1 (V c main_v12) (V c main_v34) (V c main_arg6) (V c main_v35) :=
  (dat1 V c).arrAt_eq_of_cover 4 _ (fun t _ => flushed_eq V c t) cover

/-- The first layer's output is only read by this layer: no point writes its window back. -/
theorem noflush_h : ∀ t : Fin cfg1.N, (cfg1.win 0).flush t = false :=
  (by decide +kernel : ∀ t : Fin grid1.N, win1_0.flush t = false)

/-- So its array is, after the 25 points, what the region found there. -/
theorem kept_h (c : Dev nD) : (dat1 V c).arrAt 0 cfg1.N = V c main_v12 := by
  funext i
  rw [(dat1 V c).arrAt_apply_of_forall_not_mem 0 cfg1.N i (fun t _ hf => absurd hf (by rw [noflush_h t]; decide)), A_eq1]

end Cert.KernelIdeal.Rows1

end
-- ==== Proof.Bridge.lean ====
/-
  The reference's two relu stages are the two dense layers of its own intermediate arrays.

  The reference computes h0 = max (xc · W0 + b0, 0) with a whole-array contraction and the bias broadcast over the rows,
  and h1 = max ((h0 + g · W) + b, 0) likewise, g the averaged messages. Read at an entry (r, q), a whole-array
  contraction is the sum over the contracted axis of the row-r entries times the column-q entries, and the broadcast
  bias is the bias vector's entry q — the same entry the kernel reads from the bias cast to one row. So each stage is
  the layer function of the stages before it, and nothing about the gather, the scatter-adds or the division is opened.
-/
import proofs.«160767_j57681410785500_1_alg».proof.Proof.Gen.ReferenceIdeal.Read
import proofs.«160767_j57681410785500_1_alg».proof.Proof.Layers
import Idealize.ShloMosaic.Lib.ValueLayout

noncomputable section

namespace Cert.Bridge

open Cert.ReferenceIdeal Cert.ReferenceIdeal.Read Cert.Layers
open Idealize.ShloMosaic Idealize.ShloMosaic.ValueIdx

variable (x0 : (⟨S50000x128, .f32⟩ : BufTy).Contents (Elt Ideal)) (x1 : (⟨S800000x16, .f32⟩ : BufTy).Contents (Elt Ideal)) (x2 : (⟨S800000, .f32⟩ : BufTy).Contents (Elt Ideal))
  (x4 : (⟨S144x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal))
  (x8 : (⟨S2x800000, .i32⟩ : BufTy).Contents (Elt Ideal))
  (hc : (⟨1, ![300]⟩ : Shape).ShapeCasts ⟨2, ![1, 300]⟩)

/-- The first relu stage is the first layer of the concatenated node input, the first weights and the first bias as a row. -/
theorem layer0_eq :
    layer0 (val_main_v10 (F := Ideal) x0 x1 x2 x8) x4 (shapeCast ⟨2, ![1, 300]⟩ x5 hc) = val_main_v15 (F := Ideal) x0 x1 x2 x4 x5 x8 := by
  funext i
  obtain ⟨r, q, rfl⟩ : ∃ (r : Fin 50000) (q : Fin 300), i = ix2 r q := ⟨i 0, i 1, eq_ix2 i⟩
  rw [layer0_ix2, val_main_v15_apply, val_main_v14_apply, val_main_v11_apply, val_main_v13_apply, val_main_v12_apply,
    val_main_call0_v0_apply, val_main_call0_cst_apply, shapeCast_a_1a_apply]
  have hl : ∀ k : Fin 144, lidx_main_v11 (ix2 r q) k = ix2 r k := fun k => funext fun a => Fin.ext (by
    match a with | ⟨0, _⟩ => rfl | ⟨1, _⟩ => rfl)
  have hr : ∀ k : Fin 144, ridx_main_v11 (ix2 r q) k = ix2 k q := fun k => funext fun a => Fin.ext (by
    match a with | ⟨0, _⟩ => rfl | ⟨1, _⟩ => rfl)
  have hb : idx_main_v12 (idx_main_v13 (ix2 r q)) = ix1 q := funext fun a => Fin.ext (by
    match a with | ⟨0, _⟩ => rfl)
  simp only [hl, hr, hb]
  rfl

/-- The second relu stage is the second layer of the first stage, the averaged messages, the second weights and the second
    bias as a row. -/
theorem layer1_eq :
    layer1 (val_main_v15 (F := Ideal) x0 x1 x2 x4 x5 x8) (val_main_v37 (F := Ideal) x0 x1 x2 x4 x5 x8) x6 (shapeCast ⟨2, ![1, 300]⟩ x7 hc)
      = val_main_v43 (F := Ideal) x0 x1 x2 x4 x5 x6 x7 x8 := by
  funext i
  obtain ⟨r, q, rfl⟩ : ∃ (r : Fin 50000) (q : Fin 300), i = ix2 r q := ⟨i 0, i 1, eq_ix2 i⟩
  rw [layer1_ix2, val_main_v43_apply, val_main_v42_apply, val_main_v39_apply, val_main_v38_apply, val_main_v41_apply, val_main_v40_apply,
    val_main_call1_v0_apply, val_main_call1_cst_apply, shapeCast_a_1a_apply]
  have hl : ∀ k : Fin 300, lidx_main_v38 (ix2 r q) k = ix2 r k := fun k => funext fun a => Fin.ext (by
    match a with | ⟨0, _⟩ => rfl | ⟨1, _⟩ => rfl)
  have hr : ∀ k : Fin 300, ridx_main_v38 (ix2 r q) k = ix2 k q := fun k => funext fun a => Fin.ext (by
    match a with | ⟨0, _⟩ => rfl | ⟨1, _⟩ => rfl)
  have hb : idx_main_v40 (idx_main_v41 (ix2 r q)) = ix1 q := funext fun a => Fin.ext (by
    match a with | ⟨0, _⟩ => rfl)
  simp only [hl, hr, hb]
  rfl

end Cert.Bridge

end
-- ==== Proof.Results.lean ====
/-
  The idealized kernel's two results as functions of its arguments.

  The boundary contents are followed through @main. The first layer finds the node input (the node features beside
  the weighted sums of incoming edge features), the first weights untouched, and the first bias cast to one row; its
  output is the first layer of these. Between the layers the host gathers the source rows of that output, weights
  them, adds them up at the target nodes and divides by the clamped in-degree: the same operations, on the same edge
  list and weights, that the reference applies to its own first stage. The second layer finds the first output
  untouched, those averaged messages, the second weights and the second bias cast to one row. The edge list's two
  rows were sliced out before the first layer and nothing writes them afterwards, so the second stretch reads them as
  the first left them.
-/
import proofs.«160767_j57681410785500_1_alg».proof.Proof.OutRun
import proofs.«160767_j57681410785500_1_alg».proof.Proof.Rows0
import proofs.«160767_j57681410785500_1_alg».proof.Proof.Rows1
import proofs.«160767_j57681410785500_1_alg».proof.Proof.Bridge
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What the first layer finds -/

theorem found0_input : V1 m ρ c main_v10 = Cert.ReferenceIdeal.Read.val_main_v10 (F := Ideal) (m ((c : Thread nD τ).loc main_arg0)) (m ((c : Thread nD τ).loc main_arg1)) (m ((c : Thread nD τ).loc main_arg2)) (m ((c : Thread nD τ).loc main_arg8)) := by
  show StableHlo.after hostOps0 (W0 m ρ c) (Proc.devRef .tc main_v10) = _
  after_results <;> rfl

theorem found0_weights : V1 m ρ c main_arg4 = (m ((c : Thread nD τ).loc main_arg4)) := by
  show StableHlo.after hostOps0 (W0 m ρ c) (Proc.devRef .tc main_arg4) = _
  after_results <;> rfl

theorem found0_bias : V1 m ρ c main_v11 = shapeCast S1x300 (m ((c : Thread nD τ).loc main_arg5)) shapeCasts_S300_S1x300 := by
  show StableHlo.after hostOps0 (W0 m ρ c) (Proc.devRef .tc main_v11) = _
  after_results <;> rfl

/-- After the first layer its output buffer holds the reference's first relu stage of the arguments. -/
theorem first_output : W2 m ρ c (Proc.devRef .tc main_v12) = Cert.ReferenceIdeal.Read.val_main_v15 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) := by
  refine (W2_arr m ρ c 3).trans ?_
  rw [Rows0.final (V1 m ρ) c, found0_input, found0_weights, found0_bias]
  exact Cert.Bridge.layer0_eq _ _ _ _ _ _ shapeCasts_S300_S1x300

/-! ## What the first layer leaves of the buffers the second stretch reads -/

theorem kept_src : W2 m ρ c (Proc.devRef .tc main_v1) = Cert.ReferenceIdeal.Read.val_main_v1 (F := Ideal) (m ((c : Thread nD τ).loc main_arg8)) := by
  rw [W2_of_ne m ρ c main_v1 (by decide)]
  show StableHlo.after hostOps0 (W0 m ρ c) (Proc.devRef .tc main_v1) = _
  after_results <;> rfl

theorem kept_dst : W2 m ρ c (Proc.devRef .tc main_v3) = Cert.ReferenceIdeal.Read.val_main_v3 (F := Ideal) (m ((c : Thread nD τ).loc main_arg8)) := by
  rw [W2_of_ne m ρ c main_v3 (by decide)]
  show StableHlo.after hostOps0 (W0 m ρ c) (Proc.devRef .tc main_v3) = _
  after_results <;> rfl

theorem kept_edge_weight : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  after_results <;> rfl

theorem kept_weights1 : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results <;> rfl

theorem kept_bias1 : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results <;> rfl

/-! ## What the second layer finds -/

theorem found1_residual : V3 m ρ c main_v12 = Cert.ReferenceIdeal.Read.val_main_v15 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) := by
  show StableHlo.after hostOps1 (W2 m ρ c) (Proc.devRef .tc main_v12) = _
  after_results
  exact first_output m ρ c

theorem found1_weights : V3 m ρ c main_arg6 = (m ((c : Thread nD τ).loc main_arg6)) := by
  show StableHlo.after hostOps1 (W2 m ρ c) (Proc.devRef .tc main_arg6) = _
  after_results
  exact kept_weights1 m ρ c

theorem found1_bias : V3 m ρ c main_v35 = shapeCast S1x300 (m ((c : Thread nD τ).loc main_arg7)) shapeCasts_S300_S1x300 := by
  show StableHlo.after hostOps1 (W2 m ρ c) (Proc.devRef .tc main_v35) = _
  after_results
  rw [kept_bias1]
  rfl

set_option maxHeartbeats 2000000 in
/-- The averaged messages: the host operations between the layers, applied to the first output and to the edge list and
    edge weights as the first stretch left them, are the reference's own chain from its first stage to its quotient. -/
theorem found1_messages : V3 m ρ c main_v34 = Cert.ReferenceIdeal.Read.val_main_v37 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) := by
  show StableHlo.after hostOps1 (W2 m ρ c) (Proc.devRef .tc main_v34) = _
  have e12 := first_output m ρ c
  have e1 := kept_src m ρ c
  have e3 := kept_dst m ρ c
  have e2 := kept_edge_weight m ρ c
  generalize W2 m ρ c = W at e12 e1 e3 e2 ⊢
  after_results_simp
  rw [e12, e1, e3, e2]
  rfl

/-! ## The two results -/

theorem second_output : W4 m ρ c (Proc.devRef .tc main_v36) = Cert.ReferenceIdeal.Read.val_main_v43 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 4).trans ?_
  rw [Rows1.final (V3 m ρ) c, found1_residual, found1_messages, found1_weights, found1_bias]
  exact Cert.Bridge.layer1_eq _ _ _ _ _ _ _ _ shapeCasts_S300_S1x300

theorem first_output_kept : W4 m ρ c (Proc.devRef .tc main_v12) = Cert.ReferenceIdeal.Read.val_main_v15 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) := by
  refine (W4_arr m ρ c 0).trans ?_
  rw [Rows1.kept_h (V3 m ρ) c, found1_residual]

/-- The run: both results at the reference's stages of the arguments, the arguments unchanged. -/
theorem run : θ_run defs (onTc (τ := τ) (main (F := Ideal))) ⟨m, fun _ => 0, ρ⟩ (fun r => ∀ c : Dev nD,
      r.2.mem ((c.tc : Thread nD τ).loc main_v36) = Cert.ReferenceIdeal.Read.val_main_v43 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v12) = Cert.ReferenceIdeal.Read.val_main_v15 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (second_output m ρ c), (h c).2.1.trans (first_output_kept m ρ c), (h c).2.2⟩)
    (Cert.KernelIdeal.Out.run m ρ)

end Cert.KernelIdeal.Results

end
-- ==== Proof.lean ====
/-
  A two-layer message-passing update on a graph of 50000 nodes and 800000 edges, against its plain jax form.

  Both programs build the node input (the node features beside the edge-weighted sums of incoming edge features), apply
  a dense layer with a relu, gather that layer's rows along the edges, weight them, add them up at the target nodes,
  divide by the in-degree clamped below at one, and apply a second dense layer with a residual and a relu. They return
  the second layer's output and the first's. The kernel runs the two dense layers as grids of 25 row blocks with the
  operands rounded to bf16 on the way into the contraction; everything else is the same host code in both programs.

  On the extended reals the rounding is the identity, a contraction into a zero accumulator is the plain sum over the
  contracted axis, and a row of a layer's output depends on the same row of its row-blocked inputs only, so cutting the
  rows into blocks changes nothing: each layer, over the whole table, is the reference's relu stage of the same
  inputs. The host operations between the layers are applied to equal arrays and are never opened. No law used here
  needs a finite operand (sums and products are only regrouped by rows, never distributed), so the precondition is
  not used beyond the frames.

  Frames: the two kernel programs' are the generated ones; the reference has no kernel, and its frame is its run with
  the results dropped. The ideal pass rewrote no operation, so there is nothing to preserve.
-/
import proofs.«160767_j57681410785500_1_alg».proof.Defs
import proofs.«160767_j57681410785500_1_alg».proof.Proof.Gen.Kernel
import proofs.«160767_j57681410785500_1_alg».proof.Proof.Gen.Kernel.Frame
import proofs.«160767_j57681410785500_1_alg».proof.Proof.Gen.KernelIdeal
import proofs.«160767_j57681410785500_1_alg».proof.Proof.Gen.KernelIdeal.Frame
import proofs.«160767_j57681410785500_1_alg».proof.Proof.Gen.ReferenceIdeal
import proofs.«160767_j57681410785500_1_alg».proof.Proof.Gen.Pre_finite_inputs
import proofs.«160767_j57681410785500_1_alg».proof.Proof.Gen.ReferenceIdeal.Run
import proofs.«160767_j57681410785500_1_alg».proof.Proof.Gen.ReferenceIdeal.Read
import proofs.«160767_j57681410785500_1_alg».proof.Proof.Results
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

/-- Both runs end with the second layer's output and the first layer's output at the reference's two relu stages of the
    arguments; the reference's memory agrees with the kernel's on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Results.run m ρ, ?_⟩
  refine (θ_run Cert.ReferenceIdeal.defs _ _).mono (fun _ h c => ?_) (Cert.ReferenceIdeal.Value.run (F := Ideal) m' ρ')
  obtain ⟨h0, h1, h2, h3, h4, h5, h6, h7, h8⟩ := hagree c
  refine ⟨(h c).1.trans ((Cert.ReferenceIdeal.Read.val_main_v43_eq m' c).trans ?_),
    (h c).2.1.trans ((Cert.ReferenceIdeal.Read.val_main_v15_eq _ _ _ _ _ _).trans ?_), (h c).2.2⟩
  · rw [h0, h1, h2, h4, h5, h6, h7, h8]
  · rw [h0, h1, h2, h4, h5, h8]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
